-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S512x1 : Shape := ⟨2, ![512, 1]⟩
abbrev S1 : Shape := ⟨1, ![1]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S262144x512 .f32) (main_arg1 : FVec F S512x1 .f32) (main_arg2 : FVec F S1 .f32) (main_arg3 : IVec S512x1 32) (main_arg4 : IVec S1 32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S512x1 .f32 := Host.absf main_arg1
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S262144x512 : Shape := ⟨2, ![262144, 512]⟩
abbrev S512x1 : Shape := ⟨2, ![512, 1]⟩
abbrev S1 : Shape := ⟨1, ![1]⟩
abbrev S2048x128x512 : Shape := ⟨3, ![2048, 128, 512]⟩
abbrev S1x1x512 : Shape := ⟨3, ![1, 1, 512]⟩
abbrev S2048x128 : Shape := ⟨2, ![2048, 128]⟩
abbrev S32x128x512 : Shape := ⟨3, ![32, 128, 512]⟩
abbrev S32x128 : Shape := ⟨2, ![32, 128]⟩
abbrev S1x1 : Shape := ⟨2, ![1, 1]⟩
abbrev S262144x1 : Shape := ⟨2, ![262144, 1]⟩

abbrev nBuf : Space → Nat
  | .hbm => 13
  | .vmem => 6
  | .smem => 0
  | _ => 0

abbrev bufTy : (tb : Table) → Fin (tcTables nBuf tb) → BufTy
  | .hbm, ⟨0, _⟩ => ⟨S262144x512, .f32⟩
  | .hbm, ⟨1, _⟩ => ⟨S512x1, .f32⟩
  | .hbm, ⟨2, _⟩ => ⟨S1, .f32⟩
  | .hbm, ⟨3, _⟩ => ⟨S512x1, .i32⟩
  | .hbm, ⟨4, _⟩ => ⟨S1, .i32⟩
  | .hbm, ⟨5, _⟩ => ⟨S512x1, .f32⟩
  | .hbm, ⟨6, _⟩ => ⟨S512x1, .f32⟩
  | .hbm, ⟨7, _⟩ => ⟨S1, .f32⟩
  | .hbm, ⟨8, _⟩ => ⟨S1, .f32⟩
  | .hbm, ⟨9, _⟩ => ⟨S2048x128x512, .f32⟩
  | .hbm, ⟨10, _⟩ => ⟨S1x1x512, .f32⟩
  | .hbm, ⟨11, _⟩ => ⟨S2048x128, .f32⟩
  | .hbm, ⟨12, _⟩ => ⟨S262144x1, .f32⟩
  | .local _ .vmem, ⟨0, _⟩ => ⟨S32x128x512, .f32⟩
  | .local _ .vmem, ⟨1, _⟩ => ⟨S32x128x512, .f32⟩
  | .local _ .vmem, ⟨2, _⟩ => ⟨S1x1x512, .f32⟩
  | .local _ .vmem, ⟨3, _⟩ => ⟨S1, .f32⟩
  | .local _ .vmem, ⟨4, _⟩ => ⟨S32x128, .f32⟩
  | .local _ .vmem, ⟨5, _⟩ => ⟨S32x128, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144x512_S2048x128x512 : S262144x512.ShapeCasts S2048x128x512
  shapeCasts_S512x1_S1x1x512 : S512x1.ShapeCasts S1x1x512
  inb_S32x128x512_S32x128x512_0_0_0 : ∀ a, (![0, 0, 0] : Fin 3 → Nat) a + S32x128x512.size a ≤ S32x128x512.size a
  h_S32x128x512 : 0 < S32x128x512.numel
  shapeCasts_S32x128x512_S32x128x512 : S32x128x512.ShapeCasts S32x128x512
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  broadcasts_S1x1x512_S32x128x512 : S1x1x512.Broadcasts S32x128x512
  reduces_S32x128x512_S32x128 : S32x128x512.Reduces [2] S32x128
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S32x128 : S1x1.Broadcasts S32x128
  inb_S32x128_S32x128_0_0 : ∀ a, (![0, 0] : Fin 2 → Nat) a + S32x128.size a ≤ S32x128.size a
  h_S32x128 : 0 < S32x128.numel
  shapeCasts_S2048x128_S262144x1 : S2048x128.ShapeCasts S262144x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x512.size a ≤ S2048x128x512.size a
  hwx0_0 : ∀ i : grid0.Coords, EltTy.bits .f32 = 32 ∨ (Rect.block (s := S2048x128x512) S32x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S1x1x512.size a
  hwx0_1 : ∀ i : grid0.Coords, EltTy.bits .f32 = 32 ∨ (Rect.block (s := S1x1x512) S1x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S2048x128.size a
  hwx0_3 : ∀ i : grid0.Coords, EltTy.bits .f32 = 32 ∨ (Rect.block (s := S2048x128) S32x128.size (cc0_transform_3 i) (hinb0_3 i)).WholeWords (EltTy.packing .f32)

variable [Facts₀]

abbrev win0_0 : Pipeline.Window sig grid0 :=
  Pipeline.Window.ofSpec (Memref.whole main_v4) S32x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x512 : Shape := ⟨2, ![262144, 512]⟩
abbrev S512x1 : Shape := ⟨2, ![512, 1]⟩
abbrev S1 : Shape := ⟨1, ![1]⟩
abbrev S262144x1 : Shape := ⟨2, ![262144, 1]⟩
abbrev S1x1 : Shape := ⟨2, ![1, 1]⟩

abbrev nBuf : Space → Nat
  | .hbm => 14
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S512x1, .f32⟩
  | .hbm, ⟨2, _⟩ => ⟨S1, .f32⟩
  | .hbm, ⟨3, _⟩ => ⟨S512x1, .i32⟩
  | .hbm, ⟨4, _⟩ => ⟨S1, .i32⟩
  | .hbm, ⟨5, _⟩ => ⟨S512x1, .f32⟩
  | .hbm, ⟨6, _⟩ => ⟨S512x1, .f32⟩
  | .hbm, ⟨7, _⟩ => ⟨S1, .f32⟩
  | .hbm, ⟨8, _⟩ => ⟨S1, .f32⟩
  | .hbm, ⟨9, _⟩ => ⟨S262144x1, .f32⟩
  | .hbm, ⟨10, _⟩ => ⟨S1x1, .f32⟩
  | .hbm, ⟨11, _⟩ => ⟨S262144x1, .f32⟩
  | .hbm, ⟨12, _⟩ => ⟨S262144x1, .f32⟩
  | .hbm, ⟨13, _⟩ => ⟨S262144x1, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  dot_S262144x512_S512x1_S262144x1_1_0_0_1_n_n_wf : DotDims.WF S262144x512 S512x1 S262144x1 [1] [0] [0] [1] [] []

variable [Facts₀]

def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf

class Facts : Prop extends Facts₀ where

variable [Facts]
-- ==== Proof.Score.lean ====
/-
  The function both programs compute, written once over plain index types.

  With masked weights `wm` (a column of 512 entries) and a masked bias `bm` (one entry), row `r` of the result is
  `tanh (∑ k, x[r, k] · wm[k, 0] + bm[0])` on the extended reals. The reference returns these 262144 numbers as a
  [262144, 1] column; the kernel computes them as a [2048, 128] table whose entry (p, q) is row `128 p + q`, and the
  program then reads that table in row-major order as the column. The last lemma here is that reading.
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Score

/-- Row `r` of the result: the inner product of row `r` of `x` with the masked weight column, plus the masked bias,
    through `tanh`. -/
def row (x : (⟨2, ![262144, 512]⟩ : Shape).Idx → EReal) (wm : (⟨2, ![512, 1]⟩ : Shape).Idx → EReal)
    (bm : (⟨1, ![1]⟩ : Shape).Idx → EReal) (r : Fin 262144) : EReal :=
  Ideal.tanh ((∑ k : Fin 512, x (ix2 r k) * wm (ix2 k (0 : Fin 1))) + bm (ix1 (0 : Fin 1)))

/-- The result as the [262144, 1] column: entry (r, 0) is row `r`. -/
def column (x : (⟨2, ![262144, 512]⟩ : Shape).Idx → EReal) (wm : (⟨2, ![512, 1]⟩ : Shape).Idx → EReal)
    (bm : (⟨1, ![1]⟩ : Shape).Idx → EReal) : (⟨2, ![262144, 1]⟩ : Shape).Idx → EReal :=
  fun i => row x wm bm ⟨(i 0).val, (i 0).isLt⟩

/-- The result as the [2048, 128] table: entry (p, q) is row `128 p + q`. -/
def table (x : (⟨2, ![262144, 512]⟩ : Shape).Idx → EReal) (wm : (⟨2, ![512, 1]⟩ : Shape).Idx → EReal)
    (bm : (⟨1, ![1]⟩ : Shape).Idx → EReal) : (⟨2, ![2048, 128]⟩ : Shape).Idx → EReal :=
  fun j => row x wm bm ⟨(j 0).val * 128 + (j 1).val, by
    have h0 : (j 0).val < 2048 := (j 0).isLt
    have h1 : (j 1).val < 128 := (j 1).isLt
    omega⟩

/-- The program's result from its five arguments: each mask entry becomes a number, the weights and the bias are
    multiplied by their masks, and the column above is taken with those. -/
def result (x : FVec Ideal ⟨2, ![262144, 512]⟩ .f32) (w : FVec Ideal ⟨2, ![512, 1]⟩ .f32) (b : FVec Ideal ⟨1, ![1]⟩ .f32)
    (mw : IVec ⟨2, ![512, 1]⟩ 32) (mb : IVec ⟨1, ![1]⟩ 32) : (⟨2, ![262144, 1]⟩ : Shape).Idx → EReal :=
  column x (mulf w (sitofp .f32 mw)) (mulf b (sitofp .f32 mb))

/-- The table at explicit coordinates. -/
theorem table_ix2 (x : (⟨2, ![262144, 512]⟩ : Shape).Idx → EReal) (wm : (⟨2, ![512, 1]⟩ : Shape).Idx → EReal)
    (bm : (⟨1, ![1]⟩ : Shape).Idx → EReal) (p : Fin 2048) (q : Fin 128) (r : Fin 262144) (hr : r.val = p.val * 128 + q.val) :
    table x wm bm (ix2 p q) = row x wm bm r :=
  congrArg (row x wm bm) (Fin.ext hr.symm)

/-- Read in row-major order as a [262144, 1] array, the table is the column: position `r` of the column is position
    `(r / 128, r % 128)` of the table, and `128 (r / 128) + r % 128 = r`. -/
theorem cast_table (x : (⟨2, ![262144, 512]⟩ : Shape).Idx → EReal) (wm : (⟨2, ![512, 1]⟩ : Shape).Idx → EReal)
    (bm : (⟨1, ![1]⟩ : Shape).Idx → EReal)
    (h : (⟨2, ![2048, 128]⟩ : Shape).ShapeCasts ⟨2, ![262144, 1]⟩) :
    shapeCast ⟨2, ![262144, 1]⟩ (table x wm bm) h = column x wm bm := by
  funext i
  have h0 : (i 0).val < 262144 := (i 0).isLt
  have h1 : (i 1).val < 1 := (i 1).isLt
  refine (shapeCast_apply (table x wm bm) h i
    (ix2 (⟨(i 0).val / 128, by omega⟩ : Fin 2048) (⟨(i 0).val % 128, by omega⟩ : Fin 128)) ?_).trans ?_
  · rw [Shape.rowMajor_val_two, Shape.rowMajor_val_two]
    show (i 0).val / 128 * 128 + (i 0).val % 128 = (i 0).val * 1 + (i 1).val
    omega
  · exact table_ix2 x wm bm _ _ ⟨(i 0).val, (i 0).isLt⟩ (by show (i 0).val = (i 0).val / 128 * 128 + (i 0).val % 128; omega)

end Cert.Score

end
-- ==== Proof.Reference.lean ====
/-
  The reference computes the column of `Score`.

  Its result, read one operation at a time: entry (r, 0) is `tanh` of the contraction of row `r` of `x` with the
  masked weight column, plus the masked bias carried through two broadcasts that read its one entry. That is
  `Score.row` at `r`, once the index functions of the contraction and of the broadcasts are named by coordinates.
-/
import proofs.«126097_j31482110280318_2_alg».proof.Proof.Gen.ReferenceIdeal.Read
import proofs.«126097_j31482110280318_2_alg».proof.Proof.Score

noncomputable section

open Idealize.ShloMosaic Idealize.ShloMosaic.ValueIdx

namespace Cert.ReferenceIdeal.RefValue

open Cert.ReferenceIdeal Cert.ReferenceIdeal.Read

/-- The reference's result is `Score.result` of its arguments. -/
theorem result_eq (x0 : (⟨S262144x512, .f32⟩ : BufTy).Contents (Elt Ideal)) (x1 : (⟨S512x1, .f32⟩ : BufTy).Contents (Elt Ideal))
    (x2 : (⟨S1, .f32⟩ : BufTy).Contents (Elt Ideal)) (x3 : (⟨S512x1, .i32⟩ : BufTy).Contents (Elt Ideal))
    (x4 : (⟨S1, .i32⟩ : BufTy).Contents (Elt Ideal)) :
    val_main_v8 (F := Ideal) x0 x1 x2 x3 x4 = Cert.Score.result x0 x1 x2 x3 x4 := by
  funext i
  have h1 : (i 1).val < 1 := (i 1).isLt
  rw [val_main_v8_apply, val_main_v7_apply, val_main_v4_apply, val_main_v6_apply, val_main_v5_apply]
  have el : ∀ k : Fin 512, lidx_main_v4 i k = ix2 (⟨(i 0).val, (i 0).isLt⟩ : Fin 262144) k := fun k => funext fun a => by
    match a with
    | ⟨0, _⟩ => rfl
    | ⟨1, _⟩ => rfl
  have er : ∀ k : Fin 512, ridx_main_v4 i k = ix2 k (0 : Fin 1) := fun k => funext fun a => by
    match a with
    | ⟨0, _⟩ => rfl
    | ⟨1, _⟩ => exact Fin.ext (by show (i 1).val = 0; omega)
  have eb : idx_main_v5 (idx_main_v6 i) = ix1 (0 : Fin 1) := funext fun a => by
    match a with
    | ⟨0, _⟩ => rfl
  simp only [el, er, eb]
  rfl

end Cert.ReferenceIdeal.RefValue

end
-- ==== Proof.Body.lean ====
/-
  What the kernel body stores, entry by entry.

  The body loads a [32, 128, 512] block `X` of inputs, the [1, 1, 512] weight row `W` and the one-entry bias `B`,
  multiplies `X` by `W` spread over the first two axes, adds up the last axis, adds `B` spread over the [32, 128]
  result, and applies `tanh`. So entry (p, q) of what it stores is `tanh (∑ k, X[p, q, k] · W[0, 0, k] + B[0])`.
  Each layout step is read at an index on its own; the last lemma composes them.
-/
import proofs.«126097_j31482110280318_2_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Body

open Cert.KernelIdeal Cert.KernelIdeal.Gen

/-- A sum over the last axis of a [32, 128, 512] array, at entry (p, q), is the sum over `k` of the entries
    (p, q, k). -/
theorem lane_sum (v : FVec Ideal S32x128x512 .f32) (h : S32x128x512.Reduces [2] S32x128) (hφ : FKind.Formats .f32)
    (hacc : (0x00000000#32 : BitVec 32) = FKind.add.neutral .f32 hφ) (p : Fin 32) (q : Fin 128) :
    multiReduction (F := Ideal) .add [2] S32x128 v 0x00000000#32 h hφ hacc (ix2 p q) = ∑ k : Fin 512, v (ix3 p q k) :=
  (Ideal.multiReduction_add_single v 0x00000000#32 h hφ hacc (ix2 p q)).trans
    (Finset.sum_congr rfl fun k _ => congrArg v (funext fun a => Fin.ext (by
      match a with
      | ⟨0, _⟩ => rfl
      | ⟨1, _⟩ => rfl
      | ⟨2, _⟩ => rfl)))

/-- The [1, 1, 512] row spread to [32, 128, 512] reads, at (p, q, k), its entry (0, 0, k). -/
theorem spread_row (w : FVec Ideal S1x1x512 .f32) (h : S1x1x512.Broadcasts S32x128x512) (p : Fin 32) (q : Fin 128) (k : Fin 512) :
    broadcastTo S32x128x512 w h (ix3 p q k) = w (ix3 (0 : Fin 1) (0 : Fin 1) k) :=
  broadcastTo_apply w h (ix3 p q k) (ix3 (0 : Fin 1) (0 : Fin 1) k) (fun a => by
    match a with
    | ⟨0, _⟩ => show (0 : ℕ) = if (1 : ℕ) = 1 then 0 else _; rw [if_pos rfl]
    | ⟨1, _⟩ => show (0 : ℕ) = if (1 : ℕ) = 1 then 0 else _; rw [if_pos rfl]
    | ⟨2, _⟩ => show k.val = if (512 : ℕ) = 1 then 0 else _; rw [if_neg (by decide)]; rfl)

/-- The one-entry bias viewed as [1, 1] and spread to [32, 128] reads its one entry everywhere. -/
theorem spread_bias (b : FVec Ideal S1 .f32) (hc : S1.ShapeCasts S1x1) (h : S1x1.Broadcasts S32x128) (p : Fin 32) (q : Fin 128) :
    broadcastTo S32x128 (shapeCast S1x1 b hc) h (ix2 p q) = b (ix1 (0 : Fin 1)) :=
  (broadcastTo_apply (shapeCast S1x1 b hc) h (ix2 p q) (ix2 (0 : Fin 1) (0 : Fin 1)) (fun a => by
    match a with
    | ⟨0, _⟩ => show (0 : ℕ) = if (1 : ℕ) = 1 then 0 else _; rw [if_pos rfl]
    | ⟨1, _⟩ => show (0 : ℕ) = if (1 : ℕ) = 1 then 0 else _; rw [if_pos rfl])).trans
    (shapeCast_apply b hc (ix2 (0 : Fin 1) (0 : Fin 1)) (ix1 (0 : Fin 1)) (by
      rw [Shape.rowMajor_val_one, Shape.rowMajor_val_two]; rfl))

/-- Entry (p, q) of what the body stores: `tanh` of the inner product of the block's row (p, q) with the weight
    row, plus the bias. -/
theorem stored_apply (X : Vec Ideal S32x128x512 .f32) (W : Vec Ideal S1x1x512 .f32) (B : Vec Ideal S1 .f32)
    (p : Fin 32) (q : Fin 128) :
    k0_pay1 (F := Ideal) X W B (ix2 p q)
      = Ideal.tanh ((∑ k : Fin 512, X (ix3 p q k) * W (ix3 (0 : Fin 1) (0 : Fin 1) k)) + B (ix1 (0 : Fin 1))) := by
  unfold k0_pay1
  refine congrArg Ideal.tanh ?_
  refine congrArg₂ (· + ·) ?_ ?_
  · refine (lane_sum _ _ _ _ p q).trans (Finset.sum_congr rfl fun k _ => ?_)
    refine congrArg₂ (· * ·) (congrFun (shapeCast_self X _) _) ?_
    exact (spread_row _ _ p q k).trans (congrFun (shapeCast_self W _) _)
  · exact (spread_bias _ _ _ p q).trans (congrFun (shapeCast_self B _) _)

end Cert.KernelIdeal.Body

end
-- ==== Proof.Blocks.lean ====
/-
  What one grid point writes back.

  Before the kernel runs, the program views `x` as a [2048, 128, 512] array (row `r` of `x` becomes rows
  (r / 128, r % 128)), views the masked weight column as a [1, 1, 512] row, and keeps the masked bias as it is.
  Grid point `t` (of 64) reads rows `32 t … 32 t + 31` of the first axis of that array, the whole weight row and the
  bias, and writes rows `32 t … 32 t + 31` of the [2048, 128] result. Entry (p, q) of its block is therefore
  `Score.row` at `128 (32 t + p) + q`: the block is the matching block of `Score.table`.
-/
import proofs.«126097_j31482110280318_2_alg».proof.Proof.Gen.KernelIdeal.Frame
import proofs.«126097_j31482110280318_2_alg».proof.Proof.Body
import proofs.«126097_j31482110280318_2_alg».proof.Proof.Score
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-! ## The arrays as the kernel finds them -/

/-- The masked weight column: the weights times the mask entries as numbers. -/
abbrev maskedW (c : Dev nD) : FVec Ideal S512x1 .f32 :=
  mulf (m ((c : Thread nD τ).loc main_arg1)) (sitofp .f32 (m ((c : Thread nD τ).loc main_arg3)))

/-- The masked bias. -/
abbrev maskedB (c : Dev nD) : FVec Ideal S1 .f32 :=
  mulf (m ((c : Thread nD τ).loc main_arg2)) (sitofp .f32 (m ((c : Thread nD τ).loc main_arg4)))

/-- The kernel's first operand is `x` viewed as [2048, 128, 512]. -/
theorem entry_x (c : Dev nD) :
    (V m c main_v4 : S2048x128x512.Idx → EReal)
      = shapeCast S2048x128x512 (m ((c : Thread nD τ).loc main_arg0) : S262144x512.Idx → EReal) Gen.shapeCasts_S262144x512_S2048x128x512 := by
  show StableHlo.after hostOps0 (fun b => m (c, b)) (Proc.devRef .tc main_v4) = _
  after_results
  rfl

/-- Its second operand is the masked weight column viewed as a [1, 1, 512] row. -/
theorem entry_w (c : Dev nD) :
    (V m c main_v5 : S1x1x512.Idx → EReal) = shapeCast S1x1x512 (maskedW m c) Gen.shapeCasts_S512x1_S1x1x512 := by
  show StableHlo.after hostOps0 (fun b => m (c, b)) (Proc.devRef .tc main_v5) = _
  after_results
  rfl

/-- Its third operand is the masked bias. -/
theorem entry_b (c : Dev nD) : (V m c main_v3 : S1.Idx → EReal) = maskedB m c := by
  show StableHlo.after hostOps0 (fun b => m (c, b)) (Proc.devRef .tc main_v3) = _
  after_results

/-! ## Where each window's block sits -/

/-- Over the 64 grid points: the input block and the output block of point `t` are block `t` along the first axis and
    block 0 along the others; the weight row and the bias are read whole. -/
theorem block_index : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 1) = 0
    ∧ win0_3.index t (0 : Fin 2) = t.val ∧ win0_3.index t (1 : Fin 2) = 0 :=
  (by decide +kernel : ∀ t : Fin grid0.N, _)

/-! ## The input blocks, entry by entry -/

/-- Entry (p, q, k) of the input block at point `t` is `x[128 (32 t + p) + q, k]`: the block starts at row `32 t` of the
    first axis, and position ((P, q), k) of the [2048, 128, 512] view is position (128 P + q, k) of `x`. -/
theorem read_x (c : Dev nD) (t : Fin cfg0.N) (p : Fin 32) (q : Fin 128) (k : Fin 512) (r : Fin 262144)
    (hr : r.val = (t.val * 32 + p.val) * 128 + q.val) :
    (iblk m c 0 t : Vec Ideal S32x128x512 .f32) (ix3 p q k)
      = (m ((c : Thread nD τ).loc main_arg0) : S262144x512.Idx → EReal) (ix2 r k) := by
  obtain ⟨e0, e1, e2, -⟩ := block_index t
  show (V m c main_v4 : S2048x128x512.Idx → EReal) (((cfg0.win 0).blk t).view.emb (ix3 p q k)) = _
  rw [entry_x]
  refine shapeCast_apply _ _ _ (ix2 r k) ?_
  rw [Shape.rowMajor_val_two, Shape.rowMajor_val_three]
  show r.val * 512 + k.val
    = ((win0_0.index t (0 : Fin 3) * 32 + 1 * p.val) * 128 + (win0_0.index t (1 : Fin 3) * 128 + 1 * q.val)) * 512
      + (win0_0.index t (2 : Fin 3) * 512 + 1 * k.val)
  rw [e0, e1, e2, hr]
  omega

/-- Entry (0, 0, k) of the weight row's block, at any point, is the masked weight `k`. -/
theorem read_w (c : Dev nD) (t : Fin cfg0.N) (k : Fin 512) :
    (iblk m c 1 t : Vec Ideal S1x1x512 .f32) (ix3 (0 : Fin 1) (0 : Fin 1) k) = maskedW m c (ix2 k (0 : Fin 1)) := by
  obtain ⟨-, -, -, e3, e4, e5, -⟩ := block_index t
  show (V m c main_v5 : S1x1x512.Idx → EReal) (((cfg0.win 1).blk t).view.emb (ix3 (0 : Fin 1) (0 : Fin 1) k)) = _
  rw [entry_w]
  refine shapeCast_apply _ _ _ (ix2 k (0 : Fin 1)) ?_
  rw [Shape.rowMajor_val_two, Shape.rowMajor_val_three]
  show k.val * 1 + 0
    = ((win0_1.index t (0 : Fin 3) * 1 + 1 * 0) * 1 + (win0_1.index t (1 : Fin 3) * 1 + 1 * 0)) * 512
      + (win0_1.index t (2 : Fin 3) * 512 + 1 * k.val)
  rw [e3, e4, e5]
  omega

/-- The bias block's one entry, at any point, is the masked bias. -/
theorem read_b (c : Dev nD) (t : Fin cfg0.N) :
    (iblk m c 2 t : Vec Ideal S1 .f32) (ix1 (0 : Fin 1)) = maskedB m c (ix1 (0 : Fin 1)) := by
  obtain ⟨-, -, -, -, -, -, e6, -⟩ := block_index t
  show (V m c main_v3 : S1.Idx → EReal) (((cfg0.win 2).blk t).view.emb (ix1 (0 : Fin 1))) = _
  rw [entry_b]
  refine congrArg (maskedB m c) (funext fun a => Fin.ext ?_)
  match a with
  | ⟨0, _⟩ => show win0_2.index t (0 : Fin 1) * 1 + 1 * 0 = 0; rw [e6]

/-! ## What a point writes back -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- Entry (p, q) of the output block at point `t` sits at (32 t + p, q) of the [2048, 128] array. -/
theorem out_position (t : Fin cfg0.N) (p : Fin 32) (q : Fin 128) (P : Fin 2048) (hP : P.val = t.val * 32 + p.val) :
    ((cfg0.win 3).blk t).view.emb (ix2 p q) = (ix2 P q : S2048x128.Idx) := by
  obtain ⟨-, -, -, -, -, -, -, e7, e8⟩ := block_index t
  funext a
  apply Fin.ext
  match a with
  | ⟨0, _⟩ => show win0_3.index t (0 : Fin 2) * 32 + 1 * p.val = P.val; rw [e7, hP]; omega
  | ⟨1, _⟩ => show win0_3.index t (1 : Fin 2) * 128 + 1 * q.val = q.val; rw [e8]; omega

/-- So `Score.table` at that entry is `Score.row` at `128 (32 t + p) + q`. -/
theorem table_at_block (x : (⟨2, ![262144, 512]⟩ : Shape).Idx → EReal) (wm : (⟨2, ![512, 1]⟩ : Shape).Idx → EReal)
    (bm : (⟨1, ![1]⟩ : Shape).Idx → EReal) (t : Fin cfg0.N) (p : Fin 32) (q : Fin 128) (P : Fin 2048) (r : Fin 262144)
    (hP : P.val = t.val * 32 + p.val) (hr : r.val = P.val * 128 + q.val) :
    Cert.Score.table x wm bm (((cfg0.win 3).blk t).view.emb (ix2 p q)) = Cert.Score.row x wm bm r :=
  (congrArg (Cert.Score.table x wm bm) (out_position t p q P hP)).trans (Cert.Score.table_ix2 x wm bm P q r hr)

/-- WHAT POINT `t` WRITES BACK is block `t` of `Score.table`: entry (p, q) of the stored block is `tanh` of the inner
    product of row `128 (32 t + p) + q` of `x` with the masked weights, plus the masked bias. -/
theorem flushed_eq (c : Dev nD) (t : Fin cfg0.N) :
    (dats m 0 c).flushed 3 t
      = ((cfg0.win 3).blk t).view.read (Elt Ideal)
          (Cert.Score.table (m ((c : Thread nD τ).loc main_arg0)) (maskedW m c) (maskedB m c)) := by
  have ht : t.val < 64 := lt_of_lt_of_eq t.isLt N_0
  show (cfg0.win 3).cut (grid0.coords t) ((dats m 0 c).after 3 t) = _
  rw [after0_3]
  unfold out0_3
  rw [View.canon_unit_zero zeros2]
  simp only [View.ld_unit_zero (S := S32x128x512) zeros3, View.ld_unit_zero (S := S1x1x512) zeros3,
    View.ld_unit_zero (S := S1) zeros1]
  refine funext fun (j : S32x128.Idx) => ?_
  obtain ⟨p, q, rfl⟩ : ∃ (p : Fin 32) (q : Fin 128), j = ix2 p q := ⟨j 0, j 1, eq_ix2 j⟩
  show k0_pay1 (iblk m c 0 t) (iblk m c 1 t) (iblk m c 2 t) (ix2 p q)
    = Cert.Score.table (m ((c : Thread nD τ).loc main_arg0)) (maskedW m c) (maskedB m c)
        (((cfg0.win 3).blk t).view.emb (ix2 p q))
  refine (Body.stored_apply (iblk m c 0 t) (iblk m c 1 t) (iblk m c 2 t) p q).trans ?_
  refine Eq.trans ?_ (table_at_block (m ((c : Thread nD τ).loc main_arg0)) (maskedW m c) (maskedB m c) t p q
    ⟨t.val * 32 + p.val, by omega⟩ ⟨(t.val * 32 + p.val) * 128 + q.val, by omega⟩ rfl rfl).symm
  unfold Cert.Score.row
  refine congrArg Ideal.tanh (congrArg₂ (· + ·) (Finset.sum_congr rfl fun k _ => congrArg₂ (· * ·) ?_ ?_) ?_)
  · exact read_x m c t p q k _ rfl
  · exact read_w m c t k
  · exact read_b m c t

end Cert.KernelIdeal.Blocks

end
-- ==== Proof.Whole.lean ====
/-
  The kernel program's result.

  The 64 output blocks tile the [2048, 128] array: row `P` lies in the block of point `P / 32`. Every point writes
  its block of `Score.table` back, so after the last point the array is `Score.table`. The program's one remaining
  step reads that array in row-major order as a [262144, 1] column, which is `Score.column`, that is `Score.result` of
  the five arguments.
-/
import proofs.«126097_j31482110280318_2_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Blocks

variable (m : (ℓ : Loc nD τ sig) → Buf (Elt Ideal) ℓ) (ρ : Dev nD → PrngReg)

/-- An index of the [2048, 128] array is in point `t`'s block iff each coordinate is in the block's range. -/
theorem mem_block (t : Fin cfg0.N) (i : S2048x128.Idx) :
    i ∈ ((cfg0.win 3).blk t).view.set
      ↔ ∀ a : Fin 2, win0_3.index t a * S32x128.size a ≤ (i a).val ∧ (i a).val < win0_3.index t a * S32x128.size a + S32x128.size a := by
  show i ∈ ((View.whole main_v6).slice (win0_3.rect t)).set ↔ _
  rw [View.set_slice_whole, Rect.mem_set_unit]
  exact Iff.rfl

/-- Every index is in the block of some point that writes back: row `P` in that of point `P / 32`. -/
theorem covered (i : S2048x128.Idx) :
    ∃ t : Fin cfg0.N, (cfg0.win 3).flush t = true ∧ i ∈ ((cfg0.win 3).blk t).view.set := by
  have h0 : (i 0).val < 2048 := (i 0).isLt
  have h1 : (i 1).val < 128 := (i 1).isLt
  obtain ⟨t, ht⟩ : ∃ t : Fin cfg0.N, t.val = (i 0).val / 32 :=
    ⟨⟨(i 0).val / 32, lt_of_lt_of_eq (by omega : (i 0).val / 32 < 64) N_0.symm⟩, rfl⟩
  obtain ⟨-, -, -, -, -, -, -, e7, e8⟩ := block_index t
  refine ⟨t, flush0_3 t, ?_⟩
  rw [mem_block]
  intro a
  match a with
  | ⟨0, _⟩ =>
    show win0_3.index t (0 : Fin 2) * 32 ≤ (i 0).val ∧ (i 0).val < win0_3.index t (0 : Fin 2) * 32 + 32
    rw [e7, ht]; omega
  | ⟨1, _⟩ =>
    show win0_3.index t (1 : Fin 2) * 128 ≤ (i 1).val ∧ (i 1).val < win0_3.index t (1 : Fin 2) * 128 + 128
    rw [e8]; omega

/-- After the last point the kernel's output array is `Score.table`. -/
theorem final (c : Dev nD) :
    (dats m 0 c).arrAt 3 cfg0.N
      = Cert.Score.table (m ((c : Thread nD τ).loc main_arg0)) (maskedW m c) (maskedB m c) :=
  (dats m 0 c).arrAt_eq_of_cover 3 _ (fun t _ => flushed_eq m c t) covered

/-- The program's result buffer, after the step that follows the kernel, is `Score.result` of the arguments. -/
theorem result_eq (c : Dev nD) :
    Pipeline.afterTail₀ cfgs (dats m) 0 (V0 m) [hostOps1] c main_v7
      = Cert.Score.result (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v7) = _
  after_results
  have hA := (Pipeline.withArrays_arr spec0 launch0.win.arr_inj c (V0 m c) (fun w => (dats m 0 c).arrAt w (cfgs 0).N) 3).trans
    (final m c)
  show shapeCast S262144x1 (Pipeline.withArrays (cfgs 0).spec c (V0 m c) (fun w => (dats m 0 c).arrAt w (cfgs 0).N)
    (Proc.devRef .tc main_v6)) Gen.shapeCasts_S2048x128_S262144x1 = _
  rw [hA]
  exact Cert.Score.cast_table _ _ _ _

/-- The program's run: every weakly fair execution ends with the result buffer at `Score.result` of the arguments and the
    arguments as they were. -/
theorem run : θ_run defs (onTc (τ := τ) (main (F := Ideal))) ⟨m, fun _ => 0, ρ⟩ fun r => ∀ c : Dev nD,
      r.2.mem ((c.tc : Thread nD τ).loc main_v7)
        = Cert.Score.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.lean ====
/-
  The certificate of a masked linear layer with `tanh`: `tanh (x · (w ⊙ mask_w) + b ⊙ mask_b)` over 262144 rows of 512.

  Both programs first turn the two integer masks into numbers and multiply them into the weight column and the bias.
  The reference then contracts each row of `x` with the masked column, adds the masked bias and applies `tanh`. The
  kernel views `x` as [2048, 128, 512], and at each of 64 grid points multiplies a [32, 128, 512] block by the weight
  row, adds up the last axis, adds the bias and applies `tanh`, filling a [2048, 128] table that is finally read in
  row-major order as the [262144, 1] column. Over the extended reals both are, at row `r`,
  `tanh (∑ k, x[r, k] · wm[k] + bm)` — the same finite sum of the same products in the same order, so no law of
  arithmetic beyond the definitions is used and the inputs' finiteness is never opened.

  `Score` states that function; `Reference` shows the reference computes it; `Body`, `Blocks` and `Whole` show the
  kernel program does (the body's stored value at an index, the block a grid point writes back, the array after the
  last point and the final reading). The three frames are the generated runs. The idealized kernel is the kernel's own
  text, so there is nothing to preserve.
-/
import proofs.«126097_j31482110280318_2_alg».proof.Defs
import proofs.«126097_j31482110280318_2_alg».proof.Proof.Gen.Kernel
import proofs.«126097_j31482110280318_2_alg».proof.Proof.Gen.Kernel.Skeleton
import proofs.«126097_j31482110280318_2_alg».proof.Proof.Gen.Kernel.Launch
import proofs.«126097_j31482110280318_2_alg».proof.Proof.Gen.Kernel.Points
import proofs.«126097_j31482110280318_2_alg».proof.Proof.Gen.Kernel.Frame
import proofs.«126097_j31482110280318_2_alg».proof.Proof.Gen.KernelIdeal
import proofs.«126097_j31482110280318_2_alg».proof.Proof.Gen.KernelIdeal.Skeleton
import proofs.«126097_j31482110280318_2_alg».proof.Proof.Gen.KernelIdeal.Launch
import proofs.«126097_j31482110280318_2_alg».proof.Proof.Gen.KernelIdeal.Points
import proofs.«126097_j31482110280318_2_alg».proof.Proof.Gen.KernelIdeal.Frame
import proofs.«126097_j31482110280318_2_alg».proof.Proof.Gen.ReferenceIdeal
import proofs.«126097_j31482110280318_2_alg».proof.Proof.Gen.Pre_finite_inputs
import proofs.«126097_j31482110280318_2_alg».proof.Proof.Gen.ReferenceIdeal.Run
import proofs.«126097_j31482110280318_2_alg».proof.Proof.Gen.ReferenceIdeal.Read
import proofs.«126097_j31482110280318_2_alg».proof.Proof.Reference
import proofs.«126097_j31482110280318_2_alg».proof.Proof.Whole
import Idealize.ShloMosaic.Adequacy
import Idealize.ShloMosaic.Init

noncomputable section

namespace Cert.Proof

open Idealize.ShloMosaic Idealize.SL.Sem

/-- The kernel as printed runs and leaves its arguments alone: the generated frame. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments, both programs end with their result buffer at `Score.result` of
    those arguments. -/
theorem algebraic : Cert.algebraic_KernelIdeal_ReferenceIdeal := by
  intro m ρ m' ρ' _ hagree
  refine ⟨fun c => Cert.Score.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
